-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S5000x128 : Shape := ⟨2, ![5000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 25
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .i1⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.WholeRun.lean ====
/-
  The whole program's run with its result named.

  The program is two kernel regions with a stretch of host operations between them. Its buffers' contents at the
  four boundaries are a fold from the launch memory: at launch; after the first region (its output array at what the
  grid points wrote back, everything else untouched); after the host stretch; after the second region. Every weakly
  fair execution terminates without a fault with every unscoped buffer at the last boundary's contents. Read at the
  six argument buffers, the last boundary's contents are the launch contents; read at the result buffer, they are the
  second region's output array after its last grid point. This module states that run: the result buffer named, the
  arguments unchanged.
-/
import proofs.«161052_j81990925681141_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer after the last region is the second region's output array after its last grid point. -/
theorem last_result (c : Dev nD) :
    W3 m ρ c (Proc.devRef .tc main_v15) = (dat1 (V2 m ρ) c).arrAt 2 cfg1.N :=
  W3_arr m ρ c 2

set_option backward.isDefEq.respectTransparency.types false in
/-- Every weakly fair execution terminates, nothing faulting; the result buffer ends at the last boundary's contents
    and the six arguments end as launched. -/
theorem run : θ_run defs (onTc (τ := τ) (main (F := F))) ⟨m, fun _ => 0, ρ⟩ (fun r => ∀ c : Dev nD,
      r.2.mem ((c.tc : Thread nD τ).loc main_v15) = W3 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v15 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Whole

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«161052_j81990925681141_1_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.FirstRegion.lean ====
/-
  The first region's output array is the whole matrix product.

  The region runs over twenty grid points. Point t reads rows 5000 t, …, 5000 t + 4999 of the node-feature matrix (all 128
  columns) and the whole 128 × 128 weight matrix, multiplies the two blocks (operands narrowed to bf16, which changes
  nothing on exact values, accumulated into zeros), and writes the 5000 × 128 product back as rows 5000 t, …, 5000 t + 4999
  of the output. A band of rows of a product is the product of that band of rows of the left factor with the right factor,
  so what point t writes back is block t of the product of the two whole matrices; the twenty blocks tile the output's
  100000 rows (row r lies in block r / 5000), so the output array ends as that product.
-/
import proofs.«161052_j81990925681141_1_alg».proof.Proof.Gen.KernelIdeal.Frame
import proofs.«161052_j81990925681141_1_alg».proof.Proof.LibMatProd
import Idealize.ShloMosaic.Lib.Pipeline.Value

set_option maxRecDepth 16384

noncomputable section

namespace Cert.KernelIdeal.First

open Cert.KernelIdeal Cert.KernelIdeal.Gen Idealize.ShloMosaic Idealize.ShloMosaic.TcCoe Idealize.SL.Sem
open Idealize.ShloMosaic.ValueIdx Cert.LibMatProd
open Idealize.ShloMosaic.Pipeline (Dat)

-- the buffers' contents when the region is entered
variable (V : (c : Dev nD) → (b : Ref sig .tc) → Buf (Elt Ideal) ((c : Thread nD τ).loc b))

theorem zero_corner : (![0, 0] : Fin 2 → Nat) = fun _ => 0 := funext fun a => by fin_cases a <;> rfl

/-- The block's arithmetic is the matrix product of the two loaded blocks. -/
theorem block_product (x0 : Vec Ideal S5000x128 .f32) (x1 : Vec Ideal S128x128 .f32) :
    k0_pay1 (F := Ideal) x0 x1 = matProd x0 x1 :=
  matmul_eq dot_S5000x128_S128x128_S5000x128_1_0_0_1_n_n rfl rfl rfl rfl rfl rfl x0 x1 bitsLt_bf16_f32

/-- Where each window's block sits at grid point t: the feature rows and the output rows at block row t, column block 0;
    the weights at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two whole matrices as the region finds them. -/
theorem written_back (c : Dev nD) (t : Fin cfg0.N) :
    (dat0 V c).flushed 2 t = ((cfg0.win 2).blk t).view.read (Elt Ideal)
      (matProd (M := 100000) (K := 128) (N := 128) (V c main_arg0) (V c main_arg4)) := by
  show (cfg0.win 2).cut (grid0.coords t) ((dat0 V c).after 2 t) = _
  rw [after0_2]
  unfold out0_2
  rw [View.canon_unit_zero zero_corner]
  simp only [View.ld_unit_zero (S := S5000x128) zero_corner, View.ld_unit_zero (S := S128x128) zero_corner]
  obtain ⟨e0, e1, e2, e3, e4, e5⟩ := block_indices t
  funext j
  show k0_pay1 (F := Ideal) (iblk0 V c 0 t) (iblk0 V c 1 t) j
    = matProd (M := 100000) (K := 128) (N := 128) (V c main_arg0) (V c main_arg4) (((cfg0.win 2).blk t).view.emb j)
  refine (congrFun (block_product (iblk0 V c 0 t) (iblk0 V c 1 t)) j).trans ?_
  refine matProd_rows (M := 100000) (K := 128) (N := 128) (T := 5000) (V c main_arg0) (V c main_arg4)
    (iblk0 V c 0 t) (iblk0 V c 1 t) (t.val * 5000) ?_ ?_ j (((cfg0.win 2).blk t).view.emb j) ?_ ?_
  · intro p k hp
    show V c main_arg0 (((cfg0.win 0).blk t).view.emb (ix2 p k)) = V c main_arg0 (ix2 ⟨t.val * 5000 + p.val, hp⟩ k)
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · intro z
    show V c main_arg4 (((cfg0.win 1).blk t).view.emb z) = V c main_arg4 z
    refine congrArg (V c main_arg4) ?_
    funext a; apply Fin.ext
    match a with
    | ⟨0, _⟩ => show win0_1.index t (0 : Fin 2) * 128 + 1 * (z 0).val = (z 0).val; omega
    | ⟨1, _⟩ => show win0_1.index t (1 : Fin 2) * 128 + 1 * (z 1).val = (z 1).val; omega
  · show win0_2.index t (0 : Fin 2) * 5000 + 1 * (j 0).val = t.val * 5000 + (j 0).val; omega
  · show win0_2.index t (1 : Fin 2) * 128 + 1 * (j 1).val = (j 1).val; omega

/-- An index of the output is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every index of the output is in the block of the point numbered by its row divided by 5000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨e0, e1, e2, e3, e4, e5⟩ := block_indices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the last grid point the output array is the product of the two matrices as the region finds them. -/
theorem product_array (c : Dev nD) :
    (dat0 V c).arrAt 2 cfg0.N = matProd (M := 100000) (K := 128) (N := 128) (V c main_arg0) (V c main_arg4) :=
  (dat0 V c).arrAt_eq_of_cover 2 _ (fun t _ => written_back V c t) covered

end Cert.KernelIdeal.First

end
-- ==== Proof.LibBiasLeaky.lean ====
/-
  A matrix plus a one-row bias, then the leaky rectifier, over the extended reals.

  The leaky rectifier with a given slope sends x to x when x ≥ 0 and to slope · x otherwise; here the test is the float
  comparison "ordered and greater or equal" against the zero word and the choice is a select on its bit, so that nothing
  is assumed about how the comparison reads on infinities. Entry (p, q) of the result is the rectifier of a (p, q) + b q.
  Three readings. The host's form: the bias broadcast to one row and then down the rows, added, compared against a
  broadcast zero, multiplied by a broadcast slope, and selected. A vector unit's form on a block of rows: the bias held as
  one row and repeated down the block. And a band of consecutive rows of the result is the same function of that band of
  rows of a.
-/
import proofs.«161052_j81990925681141_1_alg».proof.Proof.LibPlainDot

noncomputable section

namespace Cert.LibBiasLeaky

open Idealize.ShloMosaic Idealize.ShloMosaic.ValueIdx Cert.LibPlainDot

/-- The leaky rectifier with the slope given as a float word: x where x compares ≥ 0, slope · x elsewhere. -/
def leaky (slope : BitVec 32) (x : Ideal .f32) : Ideal .f32 :=
  Scalar.select (FloatOps.cmpf (F := Ideal) .oge x (FloatOps.ofBits (F := Ideal) .f32 0x00000000#32)) x
    (FloatOps.mulf (F := Ideal) (FloatOps.ofBits (F := Ideal) .f32 slope) x)

/-- Entry (p, q): the leaky rectifier of a (p, q) + b q. -/
def biasLeaky {M N : ℕ} (slope : BitVec 32) (a : FVec Ideal ⟨2, ![M, N]⟩ .f32) (b : FVec Ideal ⟨1, ![N]⟩ .f32) :
    FVec Ideal ⟨2, ![M, N]⟩ .f32 :=
  fun i => leaky slope (FloatOps.addf (F := Ideal) (a i) (b (ix1 (n := N) (i 1))))

theorem biasLeaky_apply {M N : ℕ} (slope : BitVec 32) (a : FVec Ideal ⟨2, ![M, N]⟩ .f32) (b : FVec Ideal ⟨1, ![N]⟩ .f32)
    (p : Fin M) (q : Fin N) :
    biasLeaky slope a b (ix2 p q) = leaky slope (FloatOps.addf (F := Ideal) (a (ix2 p q)) (b (ix1 q))) := rfl

/-- The host's form: the bias broadcast to one row and then down the rows, added; the sum compared against a broadcast
    zero; the slope broadcast and multiplied in; the select between the sum and the product. -/
theorem host_form {M N : ℕ} (slope : BitVec 32) (a : FVec Ideal ⟨2, ![M, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (h0 : (⟨0, ![]⟩ : Shape).BroadcastsInDim ⟨2, ![M, N]⟩ ![]) :
    select (cmpf .oge (addf a (broadcastInDim ⟨2, ![M, N]⟩ ![0, 1] hbc (broadcastInDim ⟨2, ![1, N]⟩ ![1] hr b)))
          (broadcastInDim ⟨2, ![M, N]⟩ ![] h0 (constant (F := Ideal) ⟨0, ![]⟩ .f32 0x00000000#32)))
        (addf a (broadcastInDim ⟨2, ![M, N]⟩ ![0, 1] hbc (broadcastInDim ⟨2, ![1, N]⟩ ![1] hr b)))
        (mulf (broadcastInDim ⟨2, ![M, N]⟩ ![] h0 (constant (F := Ideal) ⟨0, ![]⟩ .f32 slope))
          (addf a (broadcastInDim ⟨2, ![M, N]⟩ ![0, 1] hbc (broadcastInDim ⟨2, ![1, N]⟩ ![1] hr b))))
      = biasLeaky slope a b := by
  funext j
  obtain ⟨p, q, rfl⟩ : ∃ (p : Fin M) (q : Fin N), j = ix2 p q := ⟨j 0, j 1, eq_ix2 j⟩
  rw [biasLeaky_apply]
  have hb : broadcastInDim ⟨2, ![M, N]⟩ ![0, 1] hbc (broadcastInDim ⟨2, ![1, N]⟩ ![1] hr b) (ix2 p q) = b (ix1 q) := by
    rw [bcast_1b_ab_apply, bcast_a_1a_apply]
  show Scalar.select (FloatOps.cmpf .oge (FloatOps.addf (a (ix2 p q)) (broadcastInDim ⟨2, ![M, N]⟩ ![0, 1] hbc (broadcastInDim ⟨2, ![1, N]⟩ ![1] hr b) (ix2 p q))) _)
      (FloatOps.addf (a (ix2 p q)) (broadcastInDim ⟨2, ![M, N]⟩ ![0, 1] hbc (broadcastInDim ⟨2, ![1, N]⟩ ![1] hr b) (ix2 p q)))
      (FloatOps.mulf _ (FloatOps.addf (a (ix2 p q)) (broadcastInDim ⟨2, ![M, N]⟩ ![0, 1] hbc (broadcastInDim ⟨2, ![1, N]⟩ ![1] hr b) (ix2 p q)))) = _
  rw [hb]
  rfl

/-- A vector unit's form on a block of T rows, read at (p, q): the block and the one-row bias each through an identity
    re-lay, the row repeated down the block and added; the comparison against a splat zero, the product with a splat
    slope, the select. It is the rectifier of block (p, q) + row (0, q). -/
theorem unit_form {T N : ℕ} (slope : BitVec 32) (x0 : FVec Ideal ⟨2, ![T, N]⟩ .f32) (x1 : FVec Ideal ⟨2, ![1, N]⟩ .f32)
    (hs0 : (⟨2, ![T, N]⟩ : Shape).ShapeCasts ⟨2, ![T, N]⟩) (hs1 : (⟨2, ![1, N]⟩ : Shape).ShapeCasts ⟨2, ![1, N]⟩)
    (hb : (⟨2, ![1, N]⟩ : Shape).Broadcasts ⟨2, ![T, N]⟩) (p : Fin T) (q : Fin N) :
    select (cmpf .oge (addf (shapeCast ⟨2, ![T, N]⟩ x0 hs0) (broadcastTo ⟨2, ![T, N]⟩ (shapeCast ⟨2, ![1, N]⟩ x1 hs1) hb))
          (broadcast ⟨2, ![T, N]⟩ (Scalar.ofBits (F := Ideal) .f32 0x00000000#32)))
        (addf (shapeCast ⟨2, ![T, N]⟩ x0 hs0) (broadcastTo ⟨2, ![T, N]⟩ (shapeCast ⟨2, ![1, N]⟩ x1 hs1) hb))
        (mulf (broadcast ⟨2, ![T, N]⟩ (Scalar.ofBits (F := Ideal) .f32 slope))
          (addf (shapeCast ⟨2, ![T, N]⟩ x0 hs0) (broadcastTo ⟨2, ![T, N]⟩ (shapeCast ⟨2, ![1, N]⟩ x1 hs1) hb))) (ix2 p q)
      = leaky slope (FloatOps.addf (F := Ideal) (x0 (ix2 p q)) (x1 (ix2 (0 : Fin 1) q))) := by
  rw [shapeCast_self, shapeCast_self]
  have hrow : broadcastTo ⟨2, ![T, N]⟩ x1 hb (ix2 p q) = x1 (ix2 (0 : Fin 1) q) := broadcastTo_1b_ab_apply x1 hb p q
  show Scalar.select (FloatOps.cmpf .oge (FloatOps.addf (x0 (ix2 p q)) (broadcastTo ⟨2, ![T, N]⟩ x1 hb (ix2 p q))) _)
      (FloatOps.addf (x0 (ix2 p q)) (broadcastTo ⟨2, ![T, N]⟩ x1 hb (ix2 p q)))
      (FloatOps.mulf _ (FloatOps.addf (x0 (ix2 p q)) (broadcastTo ⟨2, ![T, N]⟩ x1 hb (ix2 p q)))) = _
  rw [hrow]
  rfl

/-- Rows r, …, r + T − 1 of the result: when x0 holds those rows of A and the row x1 holds B, the rectifier of
    x0 at y plus x1 at y's column is the result at the index whose row is r plus y's row and whose column is y's. -/
theorem biasLeaky_rows {M N T : ℕ} (slope : BitVec 32) (A : FVec Ideal ⟨2, ![M, N]⟩ .f32) (B : FVec Ideal ⟨1, ![N]⟩ .f32)
    (x0 : FVec Ideal ⟨2, ![T, N]⟩ .f32) (x1 : FVec Ideal ⟨2, ![1, N]⟩ .f32) (r : ℕ)
    (hx : ∀ (p : Fin T) (q : Fin N) (hp : r + p.val < M), x0 (ix2 p q) = A (ix2 ⟨r + p.val, hp⟩ q))
    (hb : ∀ q : Fin N, x1 (ix2 (0 : Fin 1) q) = B (ix1 q))
    (y : (⟨2, ![T, N]⟩ : Shape).Idx) (i : (⟨2, ![M, N]⟩ : Shape).Idx)
    (hi0 : (i 0).val = r + (y 0).val) (hi1 : (i 1).val = (y 1).val) :
    leaky slope (FloatOps.addf (F := Ideal) (x0 y) (x1 (ix2 (0 : Fin 1) (y 1)))) = biasLeaky slope A B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [biasLeaky_apply]
  show leaky slope (FloatOps.addf (x0 (ix2 p q')) (x1 (ix2 (0 : Fin 1) q'))) = _
  rw [hx p q' (h0 ▸ p'.isLt), hb, ← hp']

end Cert.LibBiasLeaky

end
-- ==== Proof.SecondRegion.lean ====
/-
  The second region's output array is the leaky rectifier of its input matrix plus the bias row.

  The region runs over twenty grid points. Point t reads rows 5000 t, …, 5000 t + 4999 of the aggregated matrix and the
  whole one-row bias, adds the row to every row of the block, and keeps each entry x where x ≥ 0 and 0.01-word · x
  elsewhere; it writes the block back as rows 5000 t, …, 5000 t + 4999 of the output. Entry (p, q) of the block depends only
  on entry (p, q) of the input block and on the bias at q, so what point t writes back is block t of one function of the
  whole input matrix and the bias; the twenty blocks tile the output's 100000 rows, so the output array ends as that
  function.
-/
import proofs.«161052_j81990925681141_1_alg».proof.Proof.Gen.KernelIdeal.Frame
import proofs.«161052_j81990925681141_1_alg».proof.Proof.LibBiasLeaky
import Idealize.ShloMosaic.Lib.Pipeline.Value

set_option maxRecDepth 16384

noncomputable section

namespace Cert.KernelIdeal.Second

open Cert.KernelIdeal Cert.KernelIdeal.Gen Idealize.ShloMosaic Idealize.ShloMosaic.TcCoe Idealize.SL.Sem
open Idealize.ShloMosaic.ValueIdx Cert.LibBiasLeaky
open Idealize.ShloMosaic.Pipeline (Dat)

-- the buffers' contents when the region is entered
variable (V : (c : Dev nD) → (b : Ref sig .tc) → Buf (Elt Ideal) ((c : Thread nD τ).loc b))

theorem zero_corner : (![0, 0] : Fin 2 → Nat) = fun _ => 0 := funext fun a => by fin_cases a <;> rfl

/-- The one-row bias buffer read as a vector of 128 entries. -/
def biasRow (c : Dev nD) : FVec Ideal ⟨1, ![128]⟩ .f32 := fun z => V c main_v14 (ix2 (0 : Fin 1) (z 0))

/-- The block's arithmetic at (p, q): the rectifier of the input block at (p, q) plus the bias row at q. -/
theorem block_entry (x0 : Vec Ideal S5000x128 .f32) (x1 : Vec Ideal S1x128 .f32) (p : Fin 5000) (q : Fin 128) :
    k1_pay1 (F := Ideal) x0 x1 (ix2 p q)
      = leaky 0x3C23D70A#32 (FloatOps.addf (F := Ideal) (x0 (ix2 p q)) (x1 (ix2 (0 : Fin 1) q))) :=
  unit_form (T := 5000) (N := 128) 0x3C23D70A#32 x0 x1 shapeCasts_S5000x128_S5000x128 shapeCasts_S1x128_S1x128
    broadcasts_S1x128_S5000x128 p q

/-- Where each window's block sits at grid point t: the input rows and the output rows at block row t, column block 0;
    the bias row at block (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the rectified sum of the whole input matrix and the bias row, as the region
    finds them. -/
theorem written_back (c : Dev nD) (t : Fin cfg1.N) :
    (dat1 V c).flushed 2 t = ((cfg1.win 2).blk t).view.read (Elt Ideal)
      (biasLeaky (M := 100000) (N := 128) 0x3C23D70A#32 (V c main_v13) (biasRow V c)) := by
  show (cfg1.win 2).cut (grid1.coords t) ((dat1 V c).after 2 t) = _
  rw [after1_2]
  unfold out1_2
  rw [View.canon_unit_zero zero_corner]
  simp only [View.ld_unit_zero (S := S5000x128) zero_corner, View.ld_unit_zero (S := S1x128) zero_corner]
  obtain ⟨e0, e1, e2, e3, e4, e5⟩ := block_indices t
  funext j
  show k1_pay1 (F := Ideal) (iblk1 V c 0 t) (iblk1 V c 1 t) j
    = biasLeaky (M := 100000) (N := 128) 0x3C23D70A#32 (V c main_v13) (biasRow V c) (((cfg1.win 2).blk t).view.emb j)
  obtain ⟨p, q, rfl⟩ : ∃ (p : Fin 5000) (q : Fin 128), j = ix2 p q := ⟨j 0, j 1, eq_ix2 j⟩
  refine (block_entry (iblk1 V c 0 t) (iblk1 V c 1 t) p q).trans ?_
  refine biasLeaky_rows (M := 100000) (N := 128) (T := 5000) 0x3C23D70A#32 (V c main_v13) (biasRow V c)
    (iblk1 V c 0 t) (iblk1 V c 1 t) (t.val * 5000) ?_ ?_ (ix2 p q) (((cfg1.win 2).blk t).view.emb (ix2 p q)) ?_ ?_
  · intro p' q' hp
    show V c main_v13 (((cfg1.win 0).blk t).view.emb (ix2 p' q')) = V c main_v13 (ix2 ⟨t.val * 5000 + p'.val, hp⟩ q')
    refine congrArg (V c main_v13) ?_
    funext a; apply Fin.ext
    match a with
    | ⟨0, _⟩ => show win1_0.index t (0 : Fin 2) * 5000 + 1 * p'.val = t.val * 5000 + p'.val; omega
    | ⟨1, _⟩ => show win1_0.index t (1 : Fin 2) * 128 + 1 * q'.val = q'.val; omega
  · intro q'
    show V c main_v14 (((cfg1.win 1).blk t).view.emb (ix2 (0 : Fin 1) q')) = V c main_v14 (ix2 (0 : Fin 1) q')
    refine congrArg (V c main_v14) ?_
    funext a; apply Fin.ext
    match a with
    | ⟨0, _⟩ => show win1_1.index t (0 : Fin 2) * 1 + 1 * 0 = 0; omega
    | ⟨1, _⟩ => show win1_1.index t (1 : Fin 2) * 128 + 1 * q'.val = q'.val; omega
  · show win1_2.index t (0 : Fin 2) * 5000 + 1 * p.val = t.val * 5000 + p.val; omega
  · show win1_2.index t (1 : Fin 2) * 128 + 1 * q.val = q.val; omega

/-- An index of the output is in point t's block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v15).slice (win1_2.rect t)).set ↔ _
  rw [View.set_slice_whole, Rect.mem_set_unit]
  exact Iff.rfl

/-- Every index of the output is in the block of the point numbered by its row divided by 5000. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have ht : t.val = (i 0).val / 5000 := rfl
  obtain ⟨e0, e1, e2, e3, e4, e5⟩ := block_indices t
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the last grid point the output array is the rectified sum of the input matrix and the bias row as the region
    finds them. -/
theorem rectified_array (c : Dev nD) :
    (dat1 V c).arrAt 2 cfg1.N = biasLeaky (M := 100000) (N := 128) 0x3C23D70A#32 (V c main_v13) (biasRow V c) :=
  (dat1 V c).arrAt_eq_of_cover 2 _ (fun t _ => written_back V c t) covered

end Cert.KernelIdeal.Second

end
-- ==== Proof.Middle.lean ====
/-
  Between the two regions, and the whole program's result.

  Between the regions the host gathers, for each of the 1600000 edges, the row of the first region's output named by the
  edge's source node (a negative index wrapped once by the number of nodes), scales it by the edge's value, and adds it
  into the row of a zero matrix named by the edge's destination node; it also re-lays the bias vector as one row. The
  aggregation is kept as ONE function of the projected features, the two index vectors and the edge values: nothing about
  gathering or scatter-adding is needed beyond that both programs apply the same function. Reading the buffers' contents
  through the four boundaries then gives the program's result: the rectified sum of the aggregation of the matrix product
  with the bias.
-/
import proofs.«161052_j81990925681141_1_alg».proof.Proof.WholeRun
import proofs.«161052_j81990925681141_1_alg».proof.Proof.FirstRegion
import proofs.«161052_j81990925681141_1_alg».proof.Proof.SecondRegion
import Idealize.ShloMosaic.Lib.StableHlo.Run
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.LibMatProd Cert.LibBiasLeaky

/-- The neighbourhood aggregation as the host computes it: for every edge the source node's row of h (a negative source
    index wrapped by 100000), times the edge's value, added into the destination node's row of a zero matrix. -/
def aggregate (h : (⟨S100000x128, .f32⟩ : BufTy).Contents (Elt Ideal)) (row col : (⟨S1600000, .i32⟩ : BufTy).Contents (Elt Ideal))
    (val : (⟨S1600000, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf (broadcastInDim S1600000x128 ![0, 1] bcast_S1600000x1_S1600000x128_0_1 (broadcastInDim S1600000x1 ![0] bcast_S1600000_S1600000x1_0 val))
      (Host.gather gather_S100000x128_S1600000x1_S1600000x128_1_0_n_n_0_1_1128 h
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

variable (m : (ℓ : Loc nD τ sig) → Buf (Elt Ideal) ℓ) (ρ : Dev nD → PrngReg)

/-- When the second region is entered its input matrix is the aggregation of the first region's output, the index
    vectors and the edge values as the first region left them. -/
theorem entered_matrix (c : Dev nD) :
    V2 m ρ c main_v13 = aggregate (V1 m ρ c main_v0) (V1 m ρ c main_arg1) (V1 m ρ c main_arg2) (V1 m ρ c main_arg3) := by
  show StableHlo.after hostOps1 (W1 m ρ c) (Proc.devRef .tc main_v13) = _
  after_results
  rfl

/-- and its one-row bias buffer is the bias vector re-laid as one row. -/
theorem entered_bias (c : Dev nD) :
    V2 m ρ c main_v14 = shapeCast S1x128 (V1 m ρ c main_arg5) shapeCasts_S128_S1x128 := by
  show StableHlo.after hostOps1 (W1 m ρ c) (Proc.devRef .tc main_v14) = _
  after_results
  rfl

/-- The first region leaves its output at the product of the launched feature and weight matrices, -/
theorem left_product (c : Dev nD) :
    V1 m ρ c main_v0 = matProd (M := 100000) (K := 128) (N := 128) (m ((c.tc : Thread nD τ).loc main_arg0)) (m ((c.tc : Thread nD τ).loc main_arg4)) :=
  (W1_arr m ρ c 2).trans (First.product_array (V0 m ρ) c)

/-- and the index vectors, the edge values and the bias as launched. -/
theorem left_arg1 (c : Dev nD) : V1 m ρ c main_arg1 = m ((c.tc : Thread nD τ).loc main_arg1) := W1_of_ne m ρ c main_arg1 (by decide)
theorem left_arg2 (c : Dev nD) : V1 m ρ c main_arg2 = m ((c.tc : Thread nD τ).loc main_arg2) := W1_of_ne m ρ c main_arg2 (by decide)
theorem left_arg3 (c : Dev nD) : V1 m ρ c main_arg3 = m ((c.tc : Thread nD τ).loc main_arg3) := W1_of_ne m ρ c main_arg3 (by decide)
theorem left_arg5 (c : Dev nD) : V1 m ρ c main_arg5 = m ((c.tc : Thread nD τ).loc main_arg5) := W1_of_ne m ρ c main_arg5 (by decide)

/-- The one-row bias buffer, read as a vector, is the launched bias vector. -/
theorem entered_bias_vector (c : Dev nD) : Second.biasRow (V2 m ρ) c = m ((c.tc : Thread nD τ).loc main_arg5) := by
  funext z
  obtain ⟨q, rfl⟩ : ∃ q : Fin 128, z = ix1 q := ⟨z 0, eq_ix1 z⟩
  show V2 m ρ c main_v14 (ix2 (0 : Fin 1) q) = _
  rw [entered_bias, left_arg5]
  exact shapeCast_a_1a_apply (a := 128) _ shapeCasts_S128_S1x128 (0 : Fin 1) q

/-- The program's result as one function of the launched arguments. -/
def result (c : Dev nD) : FVec Ideal ⟨2, ![100000, 128]⟩ .f32 :=
  biasLeaky (M := 100000) (N := 128) 0x3C23D70A#32
    (aggregate (matProd (M := 100000) (K := 128) (N := 128) (m ((c.tc : Thread nD τ).loc main_arg0)) (m ((c.tc : Thread nD τ).loc main_arg4)))
      (m ((c.tc : Thread nD τ).loc main_arg1)) (m ((c.tc : Thread nD τ).loc main_arg2)) (m ((c.tc : Thread nD τ).loc main_arg3)))
    (m ((c.tc : Thread nD τ).loc main_arg5))

/-- The result buffer after the last region holds it. -/
theorem last_value (c : Dev nD) : W3 m ρ c (Proc.devRef .tc main_v15) = result m c := by
  rw [last_result, Second.rectified_array (V2 m ρ) c, entered_bias_vector, entered_matrix, left_product, left_arg1, left_arg2, left_arg3]
  rfl

end Cert.KernelIdeal.Whole

end
-- ==== Proof.ReferenceValue.lean ====
/-
  The reference's result is the same function of the arguments.

  The reference multiplies the whole feature matrix by the weight matrix on the host, applies the same aggregation over
  the edges, adds the bias broadcast to one row and then down the rows, and selects between the sum and 0.01-word times
  the sum on the comparison of the sum with zero. The host's contraction is the matrix product entry by entry; the
  aggregation is the same function (the two programs' dimension records carry the same numbers); and the host's form of
  the last stage is the rectified sum. So the reference's term is the kernel's result function.
-/
import proofs.«161052_j81990925681141_1_alg».proof.Proof.Gen.ReferenceIdeal.Run
import proofs.«161052_j81990925681141_1_alg».proof.Proof.Middle

set_option maxRecDepth 16384

noncomputable section

namespace Cert.ReferenceIdeal.RefValue

open Cert.ReferenceIdeal Cert.ReferenceIdeal.Gen Idealize.ShloMosaic Idealize.ShloMosaic.TcCoe Idealize.SL.Sem
open Cert.LibMatProd Cert.LibBiasLeaky

/-- The reference's aggregation over the edges, in its own records' spelling. -/
def aggregated (h : FVec Ideal S100000x128 .f32) (row col : IVec S1600000 32)
    (val : FVec Ideal S1600000 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf (broadcastInDim S1600000x128 ![0, 1] bcast_S1600000x1_S1600000x128_0_1 (broadcastInDim S1600000x1 ![0] bcast_S1600000_S1600000x1_0 val))
      (Host.gather gather_S100000x128_S1600000x1_S1600000x128_1_0_n_n_0_1_1128 h
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- It is the kernel program's aggregation: the same operations over records with the same numbers. -/
theorem aggregated_eq (h : FVec Ideal S100000x128 .f32) (row col : IVec S1600000 32)
    (val : FVec Ideal S1600000 .f32) :
    aggregated h row col val = Cert.KernelIdeal.Whole.aggregate h row col val := rfl

/-- The sum with the bias, broadcast to one row and then down the rows. -/
def biased (a : FVec Ideal S100000x128 .f32) (b : FVec Ideal S128 .f32) :
    FVec Ideal S100000x128 .f32 :=
  addf a (broadcastInDim S100000x128 ![0, 1] bcast_S1x128_S100000x128_0_1 (broadcastInDim S1x128 ![1] bcast_S128_S1x128_1 b))

/-- The reference's composed term, as a function of the six arguments. -/
def term (X : FVec Ideal S100000x128 .f32) (row col : IVec S1600000 32)
    (val : FVec Ideal S1600000 .f32) (W : FVec Ideal S128x128 .f32)
    (b : FVec Ideal S128 .f32) : FVec Ideal S100000x128 .f32 :=
  select (cmpf .oge (biased (aggregated (Host.dotGeneral (F := Ideal) dot_S100000x128_S128x128_S100000x128_1_0_0_1_n_n none X W) row col val) b)
      (broadcastInDim S100000x128 ![] bcast_S_S100000x128 (constant (F := Ideal) S_ .f32 0x00000000#32)))
    (biased (aggregated (Host.dotGeneral (F := Ideal) dot_S100000x128_S128x128_S100000x128_1_0_0_1_n_n none X W) row col val) b)
    (mulf (broadcastInDim S100000x128 ![] bcast_S_S100000x128 (constant (F := Ideal) S_ .f32 0x3C23D70A#32))
      (biased (aggregated (Host.dotGeneral (F := Ideal) dot_S100000x128_S128x128_S100000x128_1_0_0_1_n_n none X W) row col val) b))

/-- The reference's term is the rectified sum of the aggregation of the matrix product with the bias. -/
theorem term_eq (X : FVec Ideal S100000x128 .f32) (row col : IVec S1600000 32)
    (val : FVec Ideal S1600000 .f32) (W : FVec Ideal S128x128 .f32)
    (b : FVec Ideal S128 .f32) :
    term X row col val W b
      = biasLeaky (M := 100000) (N := 128) 0x3C23D70A#32
          (Cert.KernelIdeal.Whole.aggregate (matProd (M := 100000) (K := 128) (N := 128) X W) row col val) b := by
  unfold term biased
  refine (host_form (M := 100000) (N := 128) 0x3C23D70A#32 _ b _ _ _).trans ?_
  refine congrArg (fun a => biasLeaky (M := 100000) (N := 128) 0x3C23D70A#32 a b) ?_
  rw [aggregated_eq, host_dot_eq dot_S100000x128_S128x128_S100000x128_1_0_0_1_n_n rfl rfl rfl rfl rfl rfl X W]

end Cert.ReferenceIdeal.RefValue

end
-- ==== Proof.lean ====
/-
  A graph convolution layer: out = leaky_rectifier (A · (X · W) + bias), where X is the 100000 × 128 matrix of node
  features, W the 128 × 128 weight matrix, and A the sparse adjacency given as 1600000 edges (destination node, source
  node, value): (A · H) row r is the sum over the edges with destination r of value · H row (source).

  The kernel program computes X · W in a first region (twenty blocks of 5000 rows, operands narrowed to bf16, which is the
  identity on exact values), aggregates over the edges on the host, and applies the bias and the rectifier in a second
  region (twenty blocks of 5000 rows). The reference does all of it on the host. At the exact extended reals the two are
  one function of the arguments: the blockwise product is the host's contraction entry by entry (both are the sum over
  k of X (p, k) · W (k, q)), the aggregation is literally the same host function applied to equal matrices, and the last
  stage is entrywise the same comparison, product and select on a (p, q) + bias q. No algebraic law beyond that is used,
  so the finiteness of the inputs is never needed.

  The three frames: the two kernel programs by their generated frames; the reference by its generated run with the result
  dropped. The idealization rewrote nothing, so it is preserved trivially.
-/
import proofs.«161052_j81990925681141_1_alg».proof.Defs
import proofs.«161052_j81990925681141_1_alg».proof.Proof.Gen.Kernel
import proofs.«161052_j81990925681141_1_alg».proof.Proof.Gen.Kernel.Skeleton
import proofs.«161052_j81990925681141_1_alg».proof.Proof.Gen.Kernel.Launch
import proofs.«161052_j81990925681141_1_alg».proof.Proof.Gen.Kernel.Points
import proofs.«161052_j81990925681141_1_alg».proof.Proof.Gen.Kernel.Frame
import proofs.«161052_j81990925681141_1_alg».proof.Proof.Gen.KernelIdeal
import proofs.«161052_j81990925681141_1_alg».proof.Proof.Gen.KernelIdeal.Skeleton
import proofs.«161052_j81990925681141_1_alg».proof.Proof.Gen.KernelIdeal.Launch
import proofs.«161052_j81990925681141_1_alg».proof.Proof.Gen.KernelIdeal.Points
import proofs.«161052_j81990925681141_1_alg».proof.Proof.Gen.KernelIdeal.Frame
import proofs.«161052_j81990925681141_1_alg».proof.Proof.Gen.ReferenceIdeal
import proofs.«161052_j81990925681141_1_alg».proof.Proof.Gen.Pre_finite_inputs
import proofs.«161052_j81990925681141_1_alg».proof.Proof.Gen.ReferenceIdeal.Run
import proofs.«161052_j81990925681141_1_alg».proof.Proof.Gen.ReferenceIdeal.Read
import proofs.«161052_j81990925681141_1_alg».proof.Proof.Middle
import proofs.«161052_j81990925681141_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the rectified sum of the aggregated matrix product and the bias, as one
    function of arguments that agree. -/
theorem algebraic : Cert.algebraic_KernelIdeal_ReferenceIdeal := by
  intro m ρ m' ρ' _ hagree
  refine ⟨fun c => Cert.KernelIdeal.Whole.result m c, ?_, ?_⟩
  · exact (θ_run Cert.KernelIdeal.defs _ _).mono
      (fun r h c => ⟨(h c).1.trans (Cert.KernelIdeal.Whole.last_value m ρ c), (h c).2⟩)
      (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact Cert.ReferenceIdeal.RefValue.term_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
